-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S2048x784 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S4096x784 : Shape := ⟨2, ![4096, 784]⟩
abbrev S4096 : Shape := ⟨1, ![4096]⟩
abbrev S10x4096 : Shape := ⟨2, ![10, 4096]⟩
abbrev S10 : Shape := ⟨1, ![10]⟩
abbrev S_ : Shape := ⟨0, ![]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S4096x784 : S_.BroadcastsInDim S4096x784 (![] : Fin 0 → Fin S4096x784.rank)
  reducesTo_S4096x784_S_d0_1 : S4096x784.ReducesTo [0, 1] S_
  bcast_S_S4096 : S_.BroadcastsInDim S4096 (![] : Fin 0 → Fin S4096.rank)
  reducesTo_S4096_S_d0 : S4096.ReducesTo [0] S_
  bcast_S_S10x4096 : S_.BroadcastsInDim S10x4096 (![] : Fin 0 → Fin S10x4096.rank)
  reducesTo_S10x4096_S_d0_1 : S10x4096.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x4096 1) : IVec S_ 1 :=
  let main_c_5 : IVec S_ 1 := constantI S_ 1 1#1
  let main_v17 : IVec S_ 1 := (fun x v => Host.reduce IntOp.andi x v reducesTo_S10x4096_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S8192x784 .f32) (main_arg1 : FVec F S4096x784 .f32) (main_arg2 : FVec F S4096 .f32) (main_arg3 : FVec F S10x4096 .f32) (main_arg4 : FVec F S10 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S4096x784 .f32 := Host.absf main_arg1
  let main_cst_0 : FVec F S_ .f32 := constant S_ .f32 0x7F800000#32
  let main_v5 : FVec F S4096x784 .f32 := broadcastInDim S4096x784 ![] bcast_S_S4096x784 main_cst_0
  let main_v6 : IVec S4096x784 1 := cmpf .olt main_v4 main_v5
  let main_c_1 : IVec S_ 1 := constantI S_ 1 1#1
  let main_v7 : IVec S_ 1 := (fun x v => Host.reduce IntOp.andi x v reducesTo_S4096x784_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S10x4096 .f32 := Host.absf main_arg3
  let main_cst_4 : FVec F S_ .f32 := constant S_ .f32 0x7F800000#32
  let main_v15 : FVec F S10x4096 .f32 := broadcastInDim S10x4096 ![] bcast_S_S10x4096 main_cst_4
  let main_v16 : IVec S10x4096 1 := cmpf .olt main_v14 main_v15
  fn_part1 (F := F) main_arg4 main_v13 main_v16
-- ==== Kernel.lean ====
abbrev S8192x784 : Shape := ⟨2, ![8192, 784]⟩
abbrev S4096x784 : Shape := ⟨2, ![4096, 784]⟩
abbrev S4096 : Shape := ⟨1, ![4096]⟩
abbrev S10x4096 : Shape := ⟨2, ![10, 4096]⟩
abbrev S10 : Shape := ⟨1, ![10]⟩
abbrev S_ : Shape := ⟨0, ![]⟩
abbrev S128x4096 : Shape := ⟨2, ![128, 4096]⟩
abbrev S128 : Shape := ⟨1, ![128]⟩
abbrev S1x4096 : Shape := ⟨2, ![1, 4096]⟩
abbrev S1x128 : Shape := ⟨2, ![1, 128]⟩
abbrev S8192x128 : Shape := ⟨2, ![8192, 128]⟩
abbrev S2048x784 : Shape := ⟨2, ![2048, 784]⟩
abbrev S512x784 : Shape := ⟨2, ![512, 784]⟩
abbrev S1x512 : Shape := ⟨2, ![1, 512]⟩
abbrev S128x512 : Shape := ⟨2, ![128, 512]⟩
abbrev S2048x128 : Shape := ⟨2, ![2048, 128]⟩
abbrev S2048x512 : Shape := ⟨2, ![2048, 512]⟩
abbrev S8192x10 : Shape := ⟨2, ![8192, 10]⟩

abbrev nBuf : Space → Nat
  | .hbm => 18
  | .vmem => 12
  | .smem => 0
  | _ => 0

abbrev bufTy : (tb : Table) → Fin (tcTables nBuf tb) → BufTy
  | .hbm, ⟨0, _⟩ => ⟨S8192x784, .f32⟩
  | .hbm, ⟨1, _⟩ => ⟨S4096x784, .f32⟩
  | .hbm, ⟨2, _⟩ => ⟨S4096, .f32⟩
  | .hbm, ⟨3, _⟩ => ⟨S10x4096, .f32⟩
  | .hbm, ⟨4, _⟩ => ⟨S10, .f32⟩
  | .hbm, ⟨5, _⟩ => ⟨S4096x784, .f32⟩
  | .hbm, ⟨6, _⟩ => ⟨S4096x784, .bf16⟩
  | .hbm, ⟨7, _⟩ => ⟨S_, .i32⟩
  | .hbm, ⟨8, _⟩ => ⟨S_, .f32⟩
  | .hbm, ⟨9, _⟩ => ⟨S128x4096, .f32⟩
  | .hbm, ⟨10, _⟩ => ⟨S128x4096, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x4096, .f32⟩
  | .hbm, ⟨15, _⟩ => ⟨S1x128, .f32⟩
  | .hbm, ⟨16, _⟩ => ⟨S8192x128, .f32⟩
  | .hbm, ⟨17, _⟩ => ⟨S8192x10, .f32⟩
  | .local _ .vmem, ⟨0, _⟩ => ⟨S2048x784, .f32⟩
  | .local _ .vmem, ⟨1, _⟩ => ⟨S2048x784, .f32⟩
  | .local _ .vmem, ⟨2, _⟩ => ⟨S512x784, .bf16⟩
  | .local _ .vmem, ⟨3, _⟩ => ⟨S512x784, .bf16⟩
  | .local _ .vmem, ⟨4, _⟩ => ⟨S1x512, .f32⟩
  | .local _ .vmem, ⟨5, _⟩ => ⟨S1x512, .f32⟩
  | .local _ .vmem, ⟨6, _⟩ => ⟨S128x512, .bf16⟩
  | .local _ .vmem, ⟨7, _⟩ => ⟨S128x512, .bf16⟩
  | .local _ .vmem, ⟨8, _⟩ => ⟨S1x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_16 : BitVec 32 := 0#32
  let v32 : BitVec 1 := Scalar.cmpi .ne v31 c0_i32_16
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x784 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  pads_S10x4096_S128x4096_01180_000 : S10x4096.Pads (![0, 0] : Fin 2 → Nat) ![118, 0] ![0, 0] S128x4096
  h_S_ : 0 < S_.numel
  pads_S10_S128_01180 : S10.Pads (![0] : Fin 1 → Nat) ![118] ![0] S128
  shapeCasts_S4096_S1x4096 : S4096.ShapeCasts S1x4096
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x784_S2048x784_0_0 : ∀ a, (![0, 0] : Fin 2 → Nat) a + S2048x784.size a ≤ S2048x784.size a
  h_S2048x784 : 0 < S2048x784.numel
  inb_S512x784_S512x784_0_0 : ∀ a, (![0, 0] : Fin 2 → Nat) a + S512x784.size a ≤ S512x784.size a
  h_S512x784 : 0 < S512x784.numel
  shapeCasts_S512x784_S512x784 : S512x784.ShapeCasts S512x784
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S8192x128_S8192x10_0_0 : S8192x128.Slices ![0, 0] S8192x10
  dot_S2048x784_S512x784_S2048x512_1_1_0_0_n_n_wf : DotDims.WF S2048x784 S512x784 S2048x512 [1] [1] [0] [0] [] []
  dot_S2048x512_S128x512_S2048x128_1_1_0_0_n_n_wf : DotDims.WF S2048x512 S128x512 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S8192x784.size a
  hwx0_0 : ∀ i : grid0.Coords, EltTy.bits .f32 = 32 ∨ (Rect.block (s := S8192x784) S2048x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x784.size a ≤ S4096x784.size a
  hwx0_1 : ∀ i : grid0.Coords, EltTy.bits .bf16 = 32 ∨ (Rect.block (s := S4096x784) S512x784.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x4096.size a
  hwx0_3 : ∀ i : grid0.Coords, EltTy.bits .bf16 = 32 ∨ (Rect.block (s := S128x4096) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S8192x128.size a
  hwx0_5 : ∀ i : grid0.Coords, EltTy.bits .f32 = 32 ∨ (Rect.block (s := S8192x128) S2048x128.size (cc0_transform_5 i) (hinb0_5 i)).WholeWords (EltTy.packing .f32)

variable [Facts₀]

def dot_S2048x784_S512x784_S2048x512_1_1_0_0_n_n : DotDims S2048x784 S512x784 S2048x512 where
  lhsContracting := [1]
  rhsContracting := [1]
  lhsNonContracting := [0]
  rhsNonContracting := [0]
  lhsBatch := []
  rhsBatch := []
  wf := dot_S2048x784_S512x784_S2048x512_1_1_0_0_n_n_wf
def dot_S2048x512_S128x512_S2048x128_1_1_0_0_n_n : DotDims S2048x512 S128x512 S2048x128 where
  lhsContracting := [1]
  rhsContracting := [1]
  lhsNonContracting := [0]
  rhsNonContracting := [0]
  lhsBatch := []
  rhsBatch := []
  wf := dot_S2048x512_S128x512_S2048x128_1_1_0_0_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x784.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x784 : Shape := ⟨2, ![8192, 784]⟩
abbrev S4096x784 : Shape := ⟨2, ![4096, 784]⟩
abbrev S4096 : Shape := ⟨1, ![4096]⟩
abbrev S10x4096 : Shape := ⟨2, ![10, 4096]⟩
abbrev S10 : Shape := ⟨1, ![10]⟩
abbrev S8192x4096 : Shape := ⟨2, ![8192, 4096]⟩
abbrev S1x4096 : Shape := ⟨2, ![1, 4096]⟩
abbrev S_ : Shape := ⟨0, ![]⟩
abbrev S8192x10 : Shape := ⟨2, ![8192, 10]⟩
abbrev S1x10 : Shape := ⟨2, ![1, 10]⟩

abbrev nBuf : Space → Nat
  | .hbm => 22
  | .vmem => 0
  | .smem => 0
  | _ => 0

abbrev bufTy : (tb : Table) → Fin (tcTables nBuf tb) → BufTy
  | .hbm, ⟨0, _⟩ => ⟨S8192x784, .f32⟩
  | .hbm, ⟨1, _⟩ => ⟨S4096x784, .f32⟩
  | .hbm, ⟨2, _⟩ => ⟨S4096, .f32⟩
  | .hbm, ⟨3, _⟩ => ⟨S10x4096, .f32⟩
  | .hbm, ⟨4, _⟩ => ⟨S10, .f32⟩
  | .hbm, ⟨5, _⟩ => ⟨S4096x784, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x10, .f32⟩
  | .hbm, ⟨19, _⟩ => ⟨S1x10, .f32⟩
  | .hbm, ⟨20, _⟩ => ⟨S8192x10, .f32⟩
  | .hbm, ⟨21, _⟩ => ⟨S8192x10, .f32⟩
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S8192x784_S4096x784_S8192x4096_1_1_0_0_n_n_wf : DotDims.WF S8192x784 S4096x784 S8192x4096 [1] [1] [0] [0] [] []
  dot_S8192x4096_S10x4096_S8192x10_1_1_0_0_n_n_wf : DotDims.WF S8192x4096 S10x4096 S8192x10 [1] [1] [0] [0] [] []

variable [Facts₀]

def dot_S8192x784_S4096x784_S8192x4096_1_1_0_0_n_n : DotDims S8192x784 S4096x784 S8192x4096 where
  lhsContracting := [1]
  rhsContracting := [1]
  lhsNonContracting := [0]
  rhsNonContracting := [0]
  lhsBatch := []
  rhsBatch := []
  wf := dot_S8192x784_S4096x784_S8192x4096_1_1_0_0_n_n_wf
def dot_S8192x4096_S10x4096_S8192x10_1_1_0_0_n_n : DotDims S8192x4096 S10x4096 S8192x10 where
  lhsContracting := [1]
  rhsContracting := [1]
  lhsNonContracting := [0]
  rhsNonContracting := [0]
  lhsBatch := []
  rhsBatch := []
  wf := dot_S8192x4096_S10x4096_S8192x10_1_1_0_0_n_n_wf

class Facts : Prop extends Facts₀ where

variable [Facts]
-- ==== Proof.Cases.lean ====
/-
  What each control case of the kernel body leaves behind, as values.

  The body has three cases along the chunk axis. At the first chunk it stores the zero block in the running block,
  reads it back and stores the accumulation step over it; at a middle chunk it stores the accumulation step over
  what the chunk before left; at the last chunk it does the same and then stores, in the output block, the final
  value over the running block it has just written. Each lemma reads the stores of one case back as the body's
  pure terms applied to the input blocks.
-/
import proofs.«146819_j3058016715001_2_alg».proof.Proof.Gen.KernelIdeal.Frame
import Idealize.ShloMosaic.Lib.Pipeline.Value
import Idealize.ShloMosaic.Lib.Tactic

set_option maxRecDepth 16384

noncomputable section

namespace Cert.KernelIdeal.Cases

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- A middle chunk: the running block ends at the accumulation step over what it held. -/
theorem sout_B (c : Dev nD) (i : grid0.Coords) (arg2 : Memref sig .tc .vmem S2048x784 .f32) (harg2 : arg2.IsWhole) (arg3 : Memref sig .tc .vmem S512x784 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole) (hc0 : ¬cond0_0 i) (hc1 : ¬cond0_1 i) (x0 : Vec F S2048x784 .f32) (x1 : Vec F S512x784 .bf16) (x2 : Vec F S1x512 .f32) (x3 : Vec F S128x512 .bf16) (x4 : Vec F S1x128 .f32) (xs0 : Vec F S2048x128 .f32) :
    sout0_B_0 c i arg2 harg2 arg3 harg3 arg4 harg4 arg5 harg5 arg6 harg6 arg7 harg7 arg8 harg8 hc0 hc1 x0 x1 x2 x3 x4 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz]
  simp only [View.readAt_eq_ld, harg2.read_unread, harg3.read_unread, harg4.read_unread, harg5.read_unread, harg6.read_unread, harg7.read_unread, harg8.read_unread, View.ld_unit_zero (S := S2048x784) hz, View.ld_unit_zero (S := S512x784) hz, View.ld_unit_zero (S := S1x512) hz, View.ld_unit_zero (S := S128x512) hz, View.ld_unit_zero (S := S1x128) hz, View.ld_unit_zero (S := S2048x128) hz]

/-- The first chunk: the running block ends at the accumulation step over the zero block. -/
theorem sout_A (c : Dev nD) (i : grid0.Coords) (arg2 : Memref sig .tc .vmem S2048x784 .f32) (harg2 : arg2.IsWhole) (arg3 : Memref sig .tc .vmem S512x784 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole) (hc0 : cond0_0 i) (hc1 : ¬cond0_1 i) (x0 : Vec F S2048x784 .f32) (x1 : Vec F S512x784 .bf16) (x2 : Vec F S1x512 .f32) (x3 : Vec F S128x512 .bf16) (x4 : Vec F S1x128 .f32) :
    sout0_A_0 c i arg2 harg2 arg3 harg3 arg4 harg4 arg5 harg5 arg6 harg6 arg7 harg7 arg8 harg8 hc0 hc1 x0 x1 x2 x3 x4 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S2048x128) hz, View.readCov_unit_zero (S := S2048x128) _ hz]
  simp only [View.readAt_eq_ld, harg2.read_unread, harg3.read_unread, harg4.read_unread, harg5.read_unread, harg6.read_unread, harg7.read_unread, harg8.read_unread, View.ld_unit_zero (S := S2048x784) hz, View.ld_unit_zero (S := S512x784) hz, View.ld_unit_zero (S := S1x512) hz, View.ld_unit_zero (S := S128x512) hz, View.ld_unit_zero (S := S1x128) hz, View.ld_unit_zero (S := S2048x128) hz]

/-- The last chunk: the running block ends at the accumulation step over what it held, -/
theorem sout_C (c : Dev nD) (i : grid0.Coords) (arg2 : Memref sig .tc .vmem S2048x784 .f32) (harg2 : arg2.IsWhole) (arg3 : Memref sig .tc .vmem S512x784 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole) (hc0 : ¬cond0_0 i) (hc1 : cond0_1 i) (x0 : Vec F S2048x784 .f32) (x1 : Vec F S512x784 .bf16) (x2 : Vec F S1x512 .f32) (x3 : Vec F S128x512 .bf16) (x4 : Vec F S1x128 .f32) (xs0 : Vec F S2048x128 .f32) :
    sout0_C_0 c i arg2 harg2 arg3 harg3 arg4 harg4 arg5 harg5 arg6 harg6 arg7 harg7 arg8 harg8 hc0 hc1 x0 x1 x2 x3 x4 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S2048x784) hz, View.ld_unit_zero (S := S512x784) hz, View.ld_unit_zero (S := S1x512) hz, View.ld_unit_zero (S := S128x512) hz, View.ld_unit_zero (S := S1x128) hz, View.ld_unit_zero (S := S2048x128) hz]

/-- and the output block at the final value over that running block. -/
theorem out_C (c : Dev nD) (i : grid0.Coords) (arg2 : Memref sig .tc .vmem S2048x784 .f32) (harg2 : arg2.IsWhole) (arg3 : Memref sig .tc .vmem S512x784 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole) (hc0 : ¬cond0_0 i) (hc1 : cond0_1 i) (x0 : Vec F S2048x784 .f32) (x1 : Vec F S512x784 .bf16) (x2 : Vec F S1x512 .f32) (x3 : Vec F S128x512 .bf16) (x4 : Vec F S1x128 .f32) (xs0 : Vec F S2048x128 .f32) :
    out0_C_5 c i arg2 harg2 arg3 harg3 arg4 harg4 arg5 harg5 arg6 harg6 arg7 harg7 arg8 harg8 hc0 hc1 x0 x1 x2 x3 x4 xs0 = k0_pay3 (k0_pay2 x0 x1 x2 x3 xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S2048x784) hz, View.ld_unit_zero (S := S512x784) hz, View.ld_unit_zero (S := S1x512) hz, View.ld_unit_zero (S := S128x512) hz, View.ld_unit_zero (S := S1x128) hz, View.ld_unit_zero (S := S2048x128) hz]
  rw [View.readCov_unit_zero (S := S2048x128) _ hz]

end Cert.KernelIdeal.Cases

end
-- ==== Proof.Accum.lean ====
/-
  The running block across the grid.

  Along the chunk axis the kernel keeps a running block: the first chunk of a batch tile starts it from the zero
  block, every later chunk adds its contribution to what the chunk before left, and the last chunk also writes the
  output block, the running block plus the output bias row. This module states that recursion on the grid point as
  one function (chain) and shows that what the generated frame run records for the scratch and for the output block
  is that function, by induction on the point.
-/
import proofs.«146819_j3058016715001_2_alg».proof.Proof.Cases

set_option maxRecDepth 16384

noncomputable section

namespace Cert.KernelIdeal.Accum

open Idealize.ShloMosaic Idealize.ShloMosaic.TcCoe Idealize.SL.Sem
open Cert.KernelIdeal Cert.KernelIdeal.Gen Cert.KernelIdeal.Cases

variable {F : FTy → Type} [FloatOps F]
variable (m : (ℓ : Loc nD τ sig) → Buf (Elt F) ℓ)

/-- The input blocks of point t, at their literal shapes. -/
abbrev b0 (c : Dev nD) (t : Fin cfg0.N) : Vec F S2048x784 .f32 := iblk m c 0 t
abbrev b1 (c : Dev nD) (t : Fin cfg0.N) : Vec F S512x784 .bf16 := iblk m c 1 t
abbrev b2 (c : Dev nD) (t : Fin cfg0.N) : Vec F S1x512 .f32 := iblk m c 2 t
abbrev b3 (c : Dev nD) (t : Fin cfg0.N) : Vec F S128x512 .bf16 := iblk m c 3 t
abbrev b4 (c : Dev nD) (t : Fin cfg0.N) : Vec F S1x128 .f32 := iblk m c 4 t

/-- The accumulation step of point t over a running block. -/
abbrev step (c : Dev nD) (t : Fin cfg0.N) (acc : Vec F S2048x128 .f32) : Vec F S2048x128 .f32 :=
  k0_pay2 (b0 m c t) (b1 m c t) (b2 m c t) (b3 m c t) acc

/-- At a first chunk the recorded scratch is the step over the zero block. -/
theorem scrA (c : Dev nD) (t : Fin cfg0.N) (h0 : t.val % 8 = 0) (h1 : ¬t.val % 8 = 7) :
    (outsAt0 m c t.val t.isLt).2 = step m c t (k0_pay1 (F := F)) := by
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun hh => h1 ((hcond0_1 t).mp hh)) (iblk m c 0 t) (iblk m c 1 t) (iblk m c 2 t) (iblk m c 3 t) (iblk m c 4 t)

/-- At a middle chunk it is the step over what the point before left. -/
theorem scrB (c : Dev nD) (t : Fin cfg0.N) (h0 : ¬t.val % 8 = 0) (h1 : ¬t.val % 8 = 7) :
    (outsAt0 m c t.val t.isLt).2 = step m c t (outsAt0 m c (t.val - 1) (Nat.lt_of_le_of_lt (Nat.sub_le _ _) t.isLt)).2 := by
  rw [outsAt0_B m c t h0 h1]
  dsimp only
  exact sout_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) (fun hh => h1 ((hcond0_1 t).mp hh)) (iblk m c 0 t) (iblk m c 1 t) (iblk m c 2 t) (iblk m c 3 t) (iblk m c 4 t) (outsAt0 m c (t.val - 1) (Nat.lt_of_le_of_lt (Nat.sub_le _ _) t.isLt)).2

/-- At a last chunk likewise, -/
theorem scrC (c : Dev nD) (t : Fin cfg0.N) (h0 : ¬t.val % 8 = 0) (h1 : t.val % 8 = 7) :
    (outsAt0 m c t.val t.isLt).2 = step m c t (outsAt0 m c (t.val - 1) (Nat.lt_of_le_of_lt (Nat.sub_le _ _) t.isLt)).2 := by
  rw [outsAt0_C m c t h0 h1]
  dsimp only
  exact sout_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- and the recorded output block is the final value over that step. -/
theorem outC (c : Dev nD) (t : Fin cfg0.N) (h0 : ¬t.val % 8 = 0) (h1 : t.val % 8 = 7) :
    (outsAt0 m c t.val t.isLt).1 = k0_pay3 (step m c t (outsAt0 m c (t.val - 1) (Nat.lt_of_le_of_lt (Nat.sub_le _ _) t.isLt)).2) (b4 m c t) := by
  rw [outsAt0_C m c t h0 h1]
  dsimp only
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- The running block after point n: at a first chunk the step over the zero block, otherwise the step over the
    running block of the point before. -/
def chain (c : Dev nD) : (n : ℕ) → n < cfg0.N → Vec F S2048x128 .f32
  | 0, h => step m c ⟨0, h⟩ (k0_pay1 (F := F))
  | n + 1, h => if (n + 1) % 8 = 0 then step m c ⟨n + 1, h⟩ (k0_pay1 (F := F))
      else step m c ⟨n + 1, h⟩ (chain c n (Nat.lt_of_succ_lt h))

theorem chain_zero (c : Dev nD) (h : 0 < cfg0.N) : chain m c 0 h = step m c ⟨0, h⟩ (k0_pay1 (F := F)) := rfl
theorem chain_first (c : Dev nD) (n : ℕ) (h : n + 1 < cfg0.N) (h0 : (n + 1) % 8 = 0) :
    chain m c (n + 1) h = step m c ⟨n + 1, h⟩ (k0_pay1 (F := F)) := if_pos h0
theorem chain_next (c : Dev nD) (n : ℕ) (h : n + 1 < cfg0.N) (h0 : ¬(n + 1) % 8 = 0) :
    chain m c (n + 1) h = step m c ⟨n + 1, h⟩ (chain m c n (Nat.lt_of_succ_lt h)) := if_neg h0

/-- The scratch contents the frame run records after point n are the running block. -/
theorem scratch_eq (c : Dev nD) (n : ℕ) : ∀ h : n < cfg0.N, (outsAt0 m c n h).2 = chain m c n h := by
  induction n with
  | zero =>
    intro h
    rw [chain_zero]
    exact scrA m c ⟨0, h⟩ (Nat.zero_mod _) (by show ¬(0 % 8 = 7); decide)
  | succ n ih =>
    intro h
    by_cases h0 : (n + 1) % 8 = 0
    · rw [chain_first m c n h h0]
      exact scrA m c ⟨n + 1, h⟩ h0 (by show ¬(n + 1) % 8 = 7; omega)
    · rw [chain_next m c n h h0, ← ih (Nat.lt_of_succ_lt h)]
      by_cases h1 : (n + 1) % 8 = 7
      · exact scrC m c ⟨n + 1, h⟩ h0 h1
      · exact scrB m c ⟨n + 1, h⟩ h0 h1

/-- At the last chunk of a batch tile the output block the frame run records is the running block plus the bias row. -/
theorem out_eq (c : Dev nD) (t : Fin cfg0.N) (h7 : t.val % 8 = 7) :
    (outsAt0 m c t.val t.isLt).1 = k0_pay3 (chain m c t.val t.isLt) (b4 m c t) := by
  obtain ⟨n, hn⟩ := t
  cases n with
  | zero => exact absurd (show 0 % 8 = 7 from h7) (by decide)
  | succ n =>
    have h7' : (n + 1) % 8 = 7 := h7
    have h0 : ¬(n + 1) % 8 = 0 := by omega
    show _ = k0_pay3 (chain m c (n + 1) hn) (b4 m c ⟨n + 1, hn⟩)
    rw [chain_next m c n hn h0, ← scratch_eq m c n (Nat.lt_of_succ_lt hn)]
    exact outC m c ⟨n + 1, hn⟩ h0 h7'

end Cert.KernelIdeal.Accum

end
-- ==== Proof.Payload.lean ====
/-
  The three values the kernel body stores, read at an index on the extended reals.

  The reset value is the zero block. The accumulation step adds to the running block, at row p and output column o,
  the sum over the 512 hidden units j of the chunk of  clip(h(p, j)) * w2(o, j),  where the pre-activation is
  h(p, j) = (sum_i x(p, i) * s(j, i) + sum_i (x(p, i) - x(p, i)) * s(j, i)) + b1(j):  the second sum is the
  contraction of the residual of x after a change of format that is the identity on exact values.
  The final value adds the output bias row to the running block.
-/
import proofs.«146819_j3058016715001_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-- The lower and upper clipping bounds, as the programs spell them. -/
abbrev lo : EReal := Ideal.ofBits .f32 0xBF800000#32
abbrev hi : EReal := Ideal.ofBits .f32 0x3F800000#32

local notation "D1" => dot_S2048x784_S512x784_S2048x512_1_1_0_0_n_n
local notation "D2" => dot_S2048x512_S128x512_S2048x128_1_1_0_0_n_n

theorem d1_lhs0 (i : S2048x512.Idx) (q : (D1).contr.Idx) : ((D1).lhsIdx i q 0).val = (i 0).val := by
  unfold DotDims.lhsIdx
  rw [dif_neg (show ¬(0 : Fin S2048x784.rank) ∈ (D1).lhsBatch by decide), dif_pos (show (0 : Fin S2048x784.rank) ∈ (D1).lhsNonContracting by decide)]
  rfl
theorem d1_lhs1 (i : S2048x512.Idx) (q : (D1).contr.Idx) : ((D1).lhsIdx i q 1).val = (q ⟨0, by decide⟩).val :=
  (D1).lhsIdx_val_of_single rfl i q
theorem d1_rhs0 (i : S2048x512.Idx) (q : (D1).contr.Idx) : ((D1).rhsIdx i q 0).val = (i 1).val := by
  unfold DotDims.rhsIdx
  rw [dif_neg (show ¬(0 : Fin S512x784.rank) ∈ (D1).rhsBatch by decide), dif_pos (show (0 : Fin S512x784.rank) ∈ (D1).rhsNonContracting by decide)]
  rfl
theorem d1_rhs1 (i : S2048x512.Idx) (q : (D1).contr.Idx) : ((D1).rhsIdx i q 1).val = (q ⟨0, by decide⟩).val :=
  (D1).rhsIdx_val_of_single rfl i q

/-- The first product into a zero accumulator: row p of the left operand against row j of the right one. -/
theorem matmul1_apply (l : FVec Ideal S2048x784 .bf16) (r : FVec Ideal S512x784 .bf16) (p : Fin 2048) (j : Fin 512) :
    matmul D1 none l r (constant S2048x512 .f32 0x00000000#32) (ix2 p j) = ∑ i : Fin 784, l (ix2 p i) * r (ix2 j i) := by
  simp only [matmul]
  rw [Ideal.matmul_constant_zero_apply, ← Equiv.sum_comp (contrEquiv1 D1 784 rfl rfl).symm]
  refine Finset.sum_congr rfl fun k _ => ?_
  have hk := contrEquiv1_symm_val D1 784 rfl rfl k
  have el : (D1).lhsIdx (ix2 p j) ((contrEquiv1 D1 784 rfl rfl).symm k) = ix2 p k := funext fun a => Fin.ext (by
    match a with
    | ⟨0, _⟩ => exact d1_lhs0 _ _
    | ⟨1, _⟩ => exact (d1_lhs1 _ _).trans hk)
  have er : (D1).rhsIdx (ix2 p j) ((contrEquiv1 D1 784 rfl rfl).symm k) = ix2 j k := funext fun a => Fin.ext (by
    match a with
    | ⟨0, _⟩ => exact d1_rhs0 _ _
    | ⟨1, _⟩ => exact (d1_rhs1 _ _).trans hk)
  rw [el, er]

theorem d2_lhs0 (i : S2048x128.Idx) (q : (D2).contr.Idx) : ((D2).lhsIdx i q 0).val = (i 0).val := by
  unfold DotDims.lhsIdx
  rw [dif_neg (show ¬(0 : Fin S2048x512.rank) ∈ (D2).lhsBatch by decide), dif_pos (show (0 : Fin S2048x512.rank) ∈ (D2).lhsNonContracting by decide)]
  rfl
theorem d2_lhs1 (i : S2048x128.Idx) (q : (D2).contr.Idx) : ((D2).lhsIdx i q 1).val = (q ⟨0, by decide⟩).val :=
  (D2).lhsIdx_val_of_single rfl i q
theorem d2_rhs0 (i : S2048x128.Idx) (q : (D2).contr.Idx) : ((D2).rhsIdx i q 0).val = (i 1).val := by
  unfold DotDims.rhsIdx
  rw [dif_neg (show ¬(0 : Fin S128x512.rank) ∈ (D2).rhsBatch by decide), dif_pos (show (0 : Fin S128x512.rank) ∈ (D2).rhsNonContracting by decide)]
  rfl
theorem d2_rhs1 (i : S2048x128.Idx) (q : (D2).contr.Idx) : ((D2).rhsIdx i q 1).val = (q ⟨0, by decide⟩).val :=
  (D2).rhsIdx_val_of_single rfl i q

/-- The second product into a zero accumulator: row p of the hidden block against row o of the second weights. -/
theorem matmul2_apply (l : FVec Ideal S2048x512 .bf16) (r : FVec Ideal S128x512 .bf16) (p : Fin 2048) (o : Fin 128) :
    matmul D2 none l r (constant S2048x128 .f32 0x00000000#32) (ix2 p o) = ∑ j : Fin 512, l (ix2 p j) * r (ix2 o j) := by
  simp only [matmul]
  rw [Ideal.matmul_constant_zero_apply, ← Equiv.sum_comp (contrEquiv1 D2 512 rfl rfl).symm]
  refine Finset.sum_congr rfl fun k _ => ?_
  have hk := contrEquiv1_symm_val D2 512 rfl rfl k
  have el : (D2).lhsIdx (ix2 p o) ((contrEquiv1 D2 512 rfl rfl).symm k) = ix2 p k := funext fun a => Fin.ext (by
    match a with
    | ⟨0, _⟩ => exact d2_lhs0 _ _
    | ⟨1, _⟩ => exact (d2_lhs1 _ _).trans hk)
  have er : (D2).rhsIdx (ix2 p o) ((contrEquiv1 D2 512 rfl rfl).symm k) = ix2 o k := funext fun a => Fin.ext (by
    match a with
    | ⟨0, _⟩ => exact d2_rhs0 _ _
    | ⟨1, _⟩ => exact (d2_rhs1 _ _).trans hk)
  rw [el, er]

/-- A one-row block repeated down the rows reads its row's entry. -/
theorem row512_apply (v : FVec Ideal S1x512 .f32) (p : Fin 2048) (j : Fin 512) :
    broadcastTo S2048x512 v broadcasts_S1x512_S2048x512 (ix2 p j) = v (ix2 (0 : Fin 1) j) :=
  broadcastTo_apply v broadcasts_S1x512_S2048x512 (ix2 p j) (ix2 (0 : Fin 1) j) fun a => by
    match a with
    | ⟨0, _⟩ => rfl
    | ⟨1, _⟩ => rfl

theorem row128_apply (v : FVec Ideal S1x128 .f32) (p : Fin 2048) (o : Fin 128) :
    broadcastTo S2048x128 v broadcasts_S1x128_S2048x128 (ix2 p o) = v (ix2 (0 : Fin 1) o) :=
  broadcastTo_apply v broadcasts_S1x128_S2048x128 (ix2 p o) (ix2 (0 : Fin 1) o) fun a => by
    match a with
    | ⟨0, _⟩ => rfl
    | ⟨1, _⟩ => rfl

/-- The clipped hidden unit j of row p, from the blocks of x, of the sign weights and of the first bias. -/
def hidden (x0 : Vec Ideal S2048x784 .f32) (x1 : Vec Ideal S512x784 .bf16) (x2 : Vec Ideal S1x512 .f32) (p : Fin 2048) (j : Fin 512) : EReal :=
  min hi (max lo (((∑ i : Fin 784, x0 (ix2 p i) * x1 (ix2 j i)) + ∑ i : Fin 784, (x0 (ix2 p i) - x0 (ix2 p i)) * x1 (ix2 j i)) + x2 (ix2 (0 : Fin 1) j)))

/-- One chunk's contribution to the output at row p and column o. -/
def chunk (x0 : Vec Ideal S2048x784 .f32) (x1 : Vec Ideal S512x784 .bf16) (x2 : Vec Ideal S1x512 .f32) (x3 : Vec Ideal S128x512 .bf16) (p : Fin 2048) (o : Fin 128) : EReal :=
  ∑ j : Fin 512, hidden x0 x1 x2 p j * x3 (ix2 o j)

/-- The reset value is zero everywhere. -/
theorem pay1_apply (i : S2048x128.Idx) : k0_pay1 (F := Ideal) i = 0 := by
  unfold k0_pay1
  rw [shapeCast_self]
  exact Ideal.ofBits_zero_f32

/-- The accumulation step at an index. -/
theorem pay2_apply (x0 : Vec Ideal S2048x784 .f32) (x1 : Vec Ideal S512x784 .bf16) (x2 : Vec Ideal S1x512 .f32) (x3 : Vec Ideal S128x512 .bf16)
    (acc : Vec Ideal S2048x128 .f32) (p : Fin 2048) (o : Fin 128) :
    k0_pay2 (F := Ideal) x0 x1 x2 x3 acc (ix2 p o) = acc (ix2 p o) + chunk x0 x1 x2 x3 p o := by
  unfold k0_pay2
  simp only [shapeCast_self]
  show (acc (ix2 p o) : EReal) + matmul (F := Ideal) D2 none _ _ (constant S2048x128 .f32 0x00000000#32) (ix2 p o) = _
  rw [matmul2_apply]
  unfold chunk hidden
  refine congrArg (acc (ix2 p o) + ·) (Finset.sum_congr rfl fun j _ => ?_)
  show min hi (max lo ((matmul (F := Ideal) D1 none _ _ (constant S2048x512 .f32 0x00000000#32) (ix2 p j) + matmul (F := Ideal) D1 none _ _ (constant S2048x512 .f32 0x00000000#32) (ix2 p j)) + broadcastTo S2048x512 (x2 : FVec Ideal S1x512 .f32) broadcasts_S1x512_S2048x512 (ix2 p j))) * (x3 (ix2 o j) : EReal) = _
  rw [matmul1_apply, matmul1_apply, row512_apply]
  rfl

/-- The final value at an index. -/
theorem pay3_apply (acc : Vec Ideal S2048x128 .f32) (x4 : Vec Ideal S1x128 .f32) (p : Fin 2048) (o : Fin 128) :
    k0_pay3 (F := Ideal) acc x4 (ix2 p o) = acc (ix2 p o) + x4 (ix2 (0 : Fin 1) o) := by
  unfold k0_pay3
  simp only [shapeCast_self]
  show (acc (ix2 p o) : EReal) + broadcastTo S2048x128 (x4 : FVec Ideal S1x128 .f32) broadcasts_S1x128_S2048x128 (ix2 p o) = _
  rw [row128_apply]

end Cert.KernelIdeal.Body

end
-- ==== Proof.Blocks.lean ====
/-
  The input blocks of a grid point, read off the arrays the kernel is launched on.

  The grid has 4 x 8 points; point t is batch tile t / 8 and hidden chunk t % 8. At point t the kernel sees rows
  2048 (t / 8) + p of x, rows 512 (t % 8) + j of the sign weights, columns 512 (t % 8) + j of the first bias row
  and of the padded second weights, and the whole padded second bias row.
-/
import proofs.«146819_j3058016715001_2_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- Which block of its array each window reads at point t. -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = 0 ∧ win0_2.index t 1 = t.val % 8 :=
  (by decide +kernel : ∀ t : Fin grid0.N, win0_2.index t 0 = 0 ∧ win0_2.index t 1 = t.val % 8)
theorem idx3 : ∀ t : Fin cfg0.N, win0_3.index t 0 = 0 ∧ win0_3.index t 1 = t.val % 8 :=
  (by decide +kernel : ∀ t : Fin grid0.N, win0_3.index t 0 = 0 ∧ win0_3.index t 1 = t.val % 8)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val / 8 ∧ win0_5.index t 1 = 0 :=
  (by decide +kernel : ∀ t : Fin grid0.N, win0_5.index t 0 = t.val / 8 ∧ win0_5.index t 1 = 0)

/-- The block of x at point t: rows 2048 (t / 8) + p. -/
theorem iblk0_apply (c : Dev nD) (t : Fin cfg0.N) (p : Fin 2048) (i : Fin 784) (P : Fin 8192)
    (hP : P.val = 2048 * (t.val / 8) + p.val) :
    (iblk m c 0 t : Vec F S2048x784 .f32) (ix2 p i) = (V m c main_arg0 : Vec F S8192x784 .f32) (ix2 P i) := by
  unfold iblk
  rw [View.read_apply]
  show V m c main_arg0 _ = V m c main_arg0 _
  congr 1
  funext a
  apply Fin.ext
  match a with
  | ⟨0, _⟩ => show win0_0.index t 0 * 2048 + 1 * p.val = P.val; rw [(idx0 t).1, hP]; omega
  | ⟨1, _⟩ => show win0_0.index t 1 * 784 + 1 * i.val = i.val; rw [(idx0 t).2]; omega

/-- The block of the sign weights at point t: rows 512 (t % 8) + j. -/
theorem iblk1_apply (c : Dev nD) (t : Fin cfg0.N) (j : Fin 512) (i : Fin 784) (J : Fin 4096)
    (hJ : J.val = 512 * (t.val % 8) + j.val) :
    (iblk m c 1 t : Vec F S512x784 .bf16) (ix2 j i) = (V m c main_v1 : Vec F S4096x784 .bf16) (ix2 J i) := by
  unfold iblk
  rw [View.read_apply]
  show V m c main_v1 _ = V m c main_v1 _
  congr 1
  funext a
  apply Fin.ext
  match a with
  | ⟨0, _⟩ => show win0_1.index t 0 * 512 + 1 * j.val = J.val; rw [(idx1 t).1, hJ]; omega
  | ⟨1, _⟩ => show win0_1.index t 1 * 784 + 1 * i.val = i.val; rw [(idx1 t).2]; omega

/-- The block of the first bias row at point t: columns 512 (t % 8) + j. -/
theorem iblk2_apply (c : Dev nD) (t : Fin cfg0.N) (z : Fin 1) (j : Fin 512) (J : Fin 4096)
    (hJ : J.val = 512 * (t.val % 8) + j.val) :
    (iblk m c 2 t : Vec F S1x512 .f32) (ix2 z j) = (V m c main_v5 : Vec F S1x4096 .f32) (ix2 (0 : Fin 1) J) := by
  unfold iblk
  rw [View.read_apply]
  show V m c main_v5 _ = V m c main_v5 _
  congr 1
  funext a
  apply Fin.ext
  match a with
  | ⟨0, _⟩ => show win0_2.index t 0 * 1 + 1 * z.val = 0; rw [(idx2 t).1]; omega
  | ⟨1, _⟩ => show win0_2.index t 1 * 512 + 1 * j.val = J.val; rw [(idx2 t).2, hJ]; omega

/-- The block of the padded second weights at point t: columns 512 (t % 8) + j. -/
theorem iblk3_apply (c : Dev nD) (t : Fin cfg0.N) (o : Fin 128) (j : Fin 512) (J : Fin 4096)
    (hJ : J.val = 512 * (t.val % 8) + j.val) :
    (iblk m c 3 t : Vec F S128x512 .bf16) (ix2 o j) = (V m c main_v3 : Vec F S128x4096 .bf16) (ix2 o J) := by
  unfold iblk
  rw [View.read_apply]
  show V m c main_v3 _ = V m c main_v3 _
  congr 1
  funext a
  apply Fin.ext
  match a with
  | ⟨0, _⟩ => show win0_3.index t 0 * 128 + 1 * o.val = o.val; rw [(idx3 t).1]; omega
  | ⟨1, _⟩ => show win0_3.index t 1 * 512 + 1 * j.val = J.val; rw [(idx3 t).2, hJ]; omega

/-- The padded second bias row, whole at every point. -/
theorem iblk4_apply (c : Dev nD) (t : Fin cfg0.N) (z : Fin 1) (o : Fin 128) :
    (iblk m c 4 t : Vec F S1x128 .f32) (ix2 z o) = (V m c main_v6 : Vec F S1x128 .f32) (ix2 (0 : Fin 1) o) := by
  unfold iblk
  rw [View.read_apply]
  show V m c main_v6 _ = V m c main_v6 _
  congr 1
  funext a
  apply Fin.ext
  match a with
  | ⟨0, _⟩ => show win0_4.index t 0 * 1 + 1 * z.val = 0; rw [(idx4 t).1]; omega
  | ⟨1, _⟩ => show win0_4.index t 1 * 128 + 1 * o.val = o.val; rw [(idx4 t).2]; omega

/-! ## The arrays the host lines before the launch wrote -/

theorem V_v1 (c : Dev nD) : (V m c main_v1 : FVec F S4096x784 .bf16)
    = truncf .bf16 (Host.sign (m ((c : Thread nD τ).loc main_arg1) : FVec F S4096x784 .f32)) bitsLt_bf16_f32 := by
  dsimp only [V, V0]
  simp only [hostOps0, hostOps0_1, hostOps0_2, hostOps0_3, hostOps0_4, List.flatten_cons, List.flatten_nil, List.append_nil, List.cons_append, List.nil_append]
  after_results

theorem V_v5 (c : Dev nD) : (V m c main_v5 : FVec F S1x4096 .f32)
    = shapeCast S1x4096 (m ((c : Thread nD τ).loc main_arg2) : FVec F S4096 .f32) shapeCasts_S4096_S1x4096 := by
  dsimp only [V, V0]
  simp only [hostOps0, hostOps0_1, hostOps0_2, hostOps0_3, hostOps0_4, List.flatten_cons, List.flatten_nil, List.append_nil, List.cons_append, List.nil_append]
  after_results
  rfl

theorem V_v3 (c : Dev nD) : (V m c main_v3 : FVec F S128x4096 .bf16)
    = truncf .bf16 (pad S128x4096 ![0, 0] ![118, 0] ![0, 0] (m ((c : Thread nD τ).loc main_arg3) : FVec F S10x4096 .f32)
        (sitofp (F := F) .f32 (constantI S_ 32 0#32)) pads_S10x4096_S128x4096_01180_000 h_S_) bitsLt_bf16_f32 := by
  dsimp only [V, V0]
  simp only [hostOps0, hostOps0_1, hostOps0_2, hostOps0_3, hostOps0_4, List.flatten_cons, List.flatten_nil, List.append_nil, List.cons_append, List.nil_append]
  after_results
  rfl

theorem V_v6 (c : Dev nD) : (V m c main_v6 : FVec F S1x128 .f32)
    = shapeCast S1x128 (pad S128 ![0] ![118] ![0] (m ((c : Thread nD τ).loc main_arg4) : FVec F S10 .f32)
        (sitofp (F := F) .f32 (constantI S_ 32 0#32)) pads_S10_S128_01180 h_S_) shapeCasts_S128_S1x128 := by
  dsimp only [V, V0]
  simp only [hostOps0, hostOps0_1, hostOps0_2, hostOps0_3, hostOps0_4, List.flatten_cons, List.flatten_nil, List.append_nil, List.cons_append, List.nil_append]
  after_results
  rfl

end Cert.KernelIdeal.Blocks

end
-- ==== Proof.Spec.lean ====
/-
  The arithmetic that joins the two programs, on the extended reals.

  (1) A real number minus itself is zero, so the contraction of the residual  x - x  of a finite row with any
      weights is a sum of products 0 * s = 0 and vanishes; the hidden pre-activation with that extra term is the
      plain one.  This is the only place finiteness of the input is used: at an infinite entry  x - x  is not zero.
  (2) A sum over 4096 hidden units taken as 8 chunks of 512 is the plain sum (re-indexing along the bijection
      (k, j) -> 512 k + j; commutativity and associativity of + only).
  (3) A running total that starts from zero plus the first chunk and adds one chunk per step is, after step n,
      the sum of the chunks 0, ..., n.
-/
import Mathlib.Algebra.BigOperators.Fin
import Mathlib.Algebra.BigOperators.Intervals
import Mathlib.Data.EReal.Operations
import Mathlib.Logic.Equiv.Fin.Basic

namespace Cert.Mlp

open Finset

/-- A finite extended real minus itself is zero. -/
theorem sub_self_of_real (x : EReal) (h : ∃ r : ℝ, x = (r : EReal)) : x - x = 0 := by
  obtain ⟨r, rfl⟩ := h
  rw [← EReal.coe_sub, sub_self, EReal.coe_zero]

/-- The contraction of the residual of a finite row with any weights vanishes. -/
theorem resid_zero {n : ℕ} (x s : Fin n → EReal) (h : ∀ i, ∃ r : ℝ, x i = (r : EReal)) :
    ∑ i : Fin n, (x i - x i) * s i = 0 :=
  Finset.sum_eq_zero fun i _ => by rw [sub_self_of_real (x i) (h i), zero_mul]

/-- So the pre-activation with the residual term is the plain one. -/
theorem preact_eq {n : ℕ} (x s : Fin n → EReal) (b : EReal) (h : ∀ i, ∃ r : ℝ, x i = (r : EReal)) :
    ((∑ i : Fin n, x i * s i) + ∑ i : Fin n, (x i - x i) * s i) + b = (∑ i : Fin n, x i * s i) + b := by
  rw [resid_zero x s h, add_zero]

variable {M : Type*} [AddCommMonoid M]

/-- A sum over n * b indices taken block by block: block k, position j is the index b * k + j. -/
theorem sum_blocks_fin (n b : ℕ) (f : Fin (n * b) → M) (g : Fin n → Fin b → M)
    (hg : ∀ k j, g k j = f (finProdFinEquiv (k, j))) : ∑ k : Fin n, ∑ j : Fin b, g k j = ∑ i : Fin (n * b), f i := by
  rw [← Equiv.sum_comp finProdFinEquiv f, Fintype.sum_prod_type]
  exact Finset.sum_congr rfl fun k _ => Finset.sum_congr rfl fun j _ => hg k j

/-- A running total from zero: after step n it is the sum of the first n + 1 terms. -/
theorem acc_range (acc blk : ℕ → M) (h0 : acc 0 = 0 + blk 0) (hs : ∀ n, acc (n + 1) = acc n + blk (n + 1)) (n : ℕ) :
    acc n = ∑ k ∈ Finset.range (n + 1), blk k := by
  induction n with
  | zero => rw [h0, zero_add, Finset.sum_range_one]
  | succ n ih => rw [hs, ih, Finset.sum_range_succ _ (n + 1)]

end Cert.Mlp
-- ==== Proof.Value.lean ====
/-
  The kernel's result array as one function of the arrays it is launched on, on the extended reals.

  With X the input, S the sign weights, B the first bias row, W the padded second weights and C the padded second
  bias row, as the launch finds them, the hidden unit J of batch row P is
      hid(P, J) = clip((sum_i X(P, i) S(J, i) + sum_i (X(P, i) - X(P, i)) S(J, i)) + B(J))
  and the padded output is  out(P, o) = sum_J hid(P, J) W(o, J) + C(o).
  The running block after point n holds, at row p and column o, the sum of the contributions of the chunks of its
  batch tile seen so far; at the last chunk all eight are in, and eight chunks of 512 hidden units are the 4096.
-/
import proofs.«146819_j3058016715001_2_alg».proof.Proof.Accum
import proofs.«146819_j3058016715001_2_alg».proof.Proof.Payload
import proofs.«146819_j3058016715001_2_alg».proof.Proof.Blocks
import proofs.«146819_j3058016715001_2_alg».proof.Proof.Spec

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen Cert.KernelIdeal.Body Cert.KernelIdeal.Blocks Cert.KernelIdeal.Accum

variable (m : (ℓ : Loc nD τ sig) → Buf (Elt Ideal) ℓ)

/-- The arrays as the launch finds them. -/
abbrev X (c : Dev nD) : Vec Ideal S8192x784 .f32 := V m c main_arg0
abbrev Sg (c : Dev nD) : Vec Ideal S4096x784 .bf16 := V m c main_v1
abbrev Bv (c : Dev nD) : Vec Ideal S1x4096 .f32 := V m c main_v5
abbrev Wp (c : Dev nD) : Vec Ideal S128x4096 .bf16 := V m c main_v3
abbrev Cp (c : Dev nD) : Vec Ideal S1x128 .f32 := V m c main_v6

/-- The clipped hidden unit J of batch row P. -/
def hidE (x : Vec Ideal S8192x784 .f32) (s : Vec Ideal S4096x784 .bf16) (b : Vec Ideal S1x4096 .f32) (P : Fin 8192) (J : Fin 4096) : EReal :=
  min hi (max lo (((∑ i : Fin 784, x (ix2 P i) * s (ix2 J i)) + ∑ i : Fin 784, (x (ix2 P i) - x (ix2 P i)) * s (ix2 J i)) + b (ix2 (0 : Fin 1) J)))

/-- The padded output. -/
def outE (x : Vec Ideal S8192x784 .f32) (s : Vec Ideal S4096x784 .bf16) (b : Vec Ideal S1x4096 .f32) (w : Vec Ideal S128x4096 .bf16)
    (cc : Vec Ideal S1x128 .f32) (P : Fin 8192) (o : Fin 128) : EReal :=
  (∑ J : Fin 4096, hidE x s b P J * w (ix2 o J)) + cc (ix2 (0 : Fin 1) o)

def Gpad (x : Vec Ideal S8192x784 .f32) (s : Vec Ideal S4096x784 .bf16) (b : Vec Ideal S1x4096 .f32) (w : Vec Ideal S128x4096 .bf16)
    (cc : Vec Ideal S1x128 .f32) : Vec Ideal S8192x128 .f32 := fun i => outE x s b w cc (i 0) (i 1)

/-- The contribution of the chunk of point t (zero past the grid's end). -/
def chunkAt (c : Dev nD) (t : ℕ) (p : Fin 2048) (o : Fin 128) : EReal :=
  if ht : t < cfg0.N then chunk (b0 m c ⟨t, ht⟩) (b1 m c ⟨t, ht⟩) (b2 m c ⟨t, ht⟩) (b3 m c ⟨t, ht⟩) p o else 0

theorem chunkAt_of (c : Dev nD) (p : Fin 2048) (o : Fin 128) (t : Fin cfg0.N) (n : ℕ) (hn : n = t.val) :
    chunkAt m c n p o = chunk (b0 m c t) (b1 m c t) (b2 m c t) (b3 m c t) p o := by
  subst hn
  unfold chunkAt
  rw [dif_pos t.isLt]

/-- The running block after point n, at an index: the contributions of the chunks of its batch tile so far. -/
theorem chain_apply (c : Dev nD) (p : Fin 2048) (o : Fin 128) : ∀ (n : ℕ) (h : n < cfg0.N),
    chain m c n h (ix2 p o) = ∑ k ∈ Finset.range (n % 8 + 1), chunkAt m c (8 * (n / 8) + k) p o
  | 0, h => by
    refine (pay2_apply (b0 m c ⟨0, h⟩) (b1 m c ⟨0, h⟩) (b2 m c ⟨0, h⟩) (b3 m c ⟨0, h⟩) (k0_pay1 (F := Ideal)) p o).trans ?_
    rw [pay1_apply, zero_add]
    show _ = ∑ k ∈ Finset.range 1, chunkAt m c (8 * (0 / 8) + k) p o
    rw [Finset.sum_range_one]
    exact (chunkAt_of m c p o ⟨0, h⟩ _ (by show 8 * (0 / 8) + 0 = 0; omega)).symm
  | n + 1, h => by
    have ih := chain_apply c p o n (Nat.lt_of_succ_lt h)
    by_cases h0 : (n + 1) % 8 = 0
    · have e : chain m c (n + 1) h = step m c ⟨n + 1, h⟩ (k0_pay1 (F := Ideal)) := if_pos h0
      rw [e]
      refine (pay2_apply (b0 m c ⟨n + 1, h⟩) (b1 m c ⟨n + 1, h⟩) (b2 m c ⟨n + 1, h⟩) (b3 m c ⟨n + 1, h⟩) (k0_pay1 (F := Ideal)) p o).trans ?_
      have e2 : (n + 1) % 8 + 1 = 1 := by omega
      rw [pay1_apply, zero_add, e2, Finset.sum_range_one]
      exact (chunkAt_of m c p o ⟨n + 1, h⟩ _ (by show 8 * ((n + 1) / 8) + 0 = n + 1; omega)).symm
    · have e : chain m c (n + 1) h = step m c ⟨n + 1, h⟩ (chain m c n (Nat.lt_of_succ_lt h)) := if_neg h0
      rw [e]
      refine (pay2_apply (b0 m c ⟨n + 1, h⟩) (b1 m c ⟨n + 1, h⟩) (b2 m c ⟨n + 1, h⟩) (b3 m c ⟨n + 1, h⟩) (chain m c n (Nat.lt_of_succ_lt h)) p o).trans ?_
      have e1 : (n + 1) % 8 + 1 = (n % 8 + 1) + 1 := by omega
      have e2 : (n + 1) / 8 = n / 8 := by omega
      rw [ih, e1, e2, Finset.sum_range_succ _ (n % 8 + 1)]
      refine congrArg (_ + ·) ?_
      exact (chunkAt_of m c p o ⟨n + 1, h⟩ _ (by show 8 * (n / 8) + (n % 8 + 1) = n + 1; omega)).symm

/-- The contribution of the chunk of point t, from the arrays: chunk k = t % 8 holds the hidden units 512 k + j. -/
theorem chunk_eq (c : Dev nD) (t : Fin cfg0.N) (p : Fin 2048) (o : Fin 128) (P : Fin 8192) (hP : P.val = 2048 * (t.val / 8) + p.val)
    (k : Fin 8) (hk : k.val = t.val % 8) :
    chunk (b0 m c t) (b1 m c t) (b2 m c t) (b3 m c t) p o
      = ∑ j : Fin 512, hidE (X m c) (Sg m c) (Bv m c) P ⟨512 * k.val + j.val, by have := k.isLt; have := j.isLt; omega⟩
          * Wp m c (ix2 o ⟨512 * k.val + j.val, by have := k.isLt; have := j.isLt; omega⟩) := by
  unfold chunk Body.hidden hidE
  refine Finset.sum_congr rfl fun j _ => ?_
  have hJ : (⟨512 * k.val + j.val, by have := k.isLt; have := j.isLt; omega⟩ : Fin 4096).val = 512 * (t.val % 8) + j.val := by
    show 512 * k.val + j.val = _; rw [hk]
  have e0 : ∀ i, b0 m c t (ix2 p i) = X m c (ix2 P i) := fun i => iblk0_apply m c t p i P hP
  have e1 : ∀ i, b1 m c t (ix2 j i) = Sg m c (ix2 (⟨512 * k.val + j.val, by have := k.isLt; have := j.isLt; omega⟩ : Fin 4096) i) :=
    fun i => iblk1_apply m c t j i _ hJ
  have e2 : b2 m c t (ix2 (0 : Fin 1) j) = Bv m c (ix2 (0 : Fin 1) (⟨512 * k.val + j.val, by have := k.isLt; have := j.isLt; omega⟩ : Fin 4096)) :=
    iblk2_apply m c t 0 j _ hJ
  have e3 : b3 m c t (ix2 o j) = Wp m c (ix2 o (⟨512 * k.val + j.val, by have := k.isLt; have := j.isLt; omega⟩ : Fin 4096)) :=
    iblk3_apply m c t o j _ hJ
  simp only [e0, e1, e2, e3]

/-- At the last chunk of batch tile q the recorded output block is the padded output on rows 2048 q + p. -/
theorem out_apply (c : Dev nD) (t : Fin cfg0.N) (h7 : t.val % 8 = 7) (p : Fin 2048) (o : Fin 128) (P : Fin 8192)
    (hP : P.val = 2048 * (t.val / 8) + p.val) :
    (outsAt0 m c t.val t.isLt).1 (ix2 p o) = outE (X m c) (Sg m c) (Bv m c) (Wp m c) (Cp m c) P o := by
  rw [out_eq m c t h7]
  refine (pay3_apply (chain m c t.val t.isLt) (b4 m c t) p o).trans ?_
  rw [chain_apply m c p o t.val t.isLt, show b4 m c t (ix2 (0 : Fin 1) o) = Cp m c (ix2 (0 : Fin 1) o) from iblk4_apply m c t 0 o]
  unfold outE
  refine congrArg (· + Cp m c (ix2 (0 : Fin 1) o)) ?_
  have e8 : t.val % 8 + 1 = 8 := by omega
  rw [e8, Finset.sum_range]
  have hN : cfg0.N = 32 := N_0
  have hlt : ∀ k : Fin 8, 8 * (t.val / 8) + k.val < cfg0.N := fun k => by have := t.isLt; have := k.isLt; omega
  refine (Finset.sum_congr rfl fun k _ => ?_).trans
    (Cert.Mlp.sum_blocks_fin 8 512 (fun J : Fin (8 * 512) => hidE (X m c) (Sg m c) (Bv m c) P J * Wp m c (ix2 o J))
      (fun k j => hidE (X m c) (Sg m c) (Bv m c) P ⟨512 * k.val + j.val, by have := k.isLt; have := j.isLt; omega⟩
          * Wp m c (ix2 o ⟨512 * k.val + j.val, by have := k.isLt; have := j.isLt; omega⟩))
      (fun k j => by
        have e : (⟨512 * k.val + j.val, by have := k.isLt; have := j.isLt; omega⟩ : Fin 4096) = finProdFinEquiv (k, j) :=
          Fin.ext (by rw [finProdFinEquiv_apply_val]; show 512 * k.val + j.val = j.val + 512 * k.val; omega)
        rw [e]))
  rw [chunkAt_of m c p o ⟨8 * (t.val / 8) + k.val, hlt k⟩ _ rfl]
  exact chunk_eq m c ⟨8 * (t.val / 8) + k.val, hlt k⟩ p o P
    (by show P.val = 2048 * ((8 * (t.val / 8) + k.val) / 8) + p.val; have := k.isLt; omega) k
    (by show k.val = (8 * (t.val / 8) + k.val) % 8; have := k.isLt; omega)

end Cert.KernelIdeal.Value

end
-- ==== Proof.Final.lean ====
/-
  The kernel's run, read: its result is the first ten columns of the padded output.

  The output window is written back at the last chunk of each batch tile, block t / 8 of four blocks of 2048 rows,
  so the four write-backs tile the [8192, 128] array and it ends at the padded output everywhere. The one host line
  after the launch keeps columns 0..9.
-/
import proofs.«146819_j3058016715001_2_alg».proof.Proof.Value
import Idealize.ShloMosaic.Lib.StableHlo.Run

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Value

variable (m : (ℓ : Loc nD τ sig) → Buf (Elt Ideal) ℓ) (ρ : Dev nD → PrngReg)

/-- The padded output of the arrays the launch finds. -/
abbrev G (c : Dev nD) : Vec Ideal S8192x128 .f32 := Gpad (X m c) (Sg m c) (Bv m c) (Wp m c) (Cp m c)

/-- What the last chunk of batch tile t / 8 writes back is that tile's block of the padded output. -/
theorem flushed_eq (c : Dev nD) (t : Fin cfg0.N) (hf : (cfg0.win 5).flush t = true) :
    (dats m 0 c).flushed 5 t = ((cfg0.win 5).blk t).view.read (Elt Ideal) (G m c) := by
  have h7 : t.val % 8 = 7 := (flush0_5 t).mp hf
  show (cfg0.win 5).cut (grid0.coords t) ((dats m 0 c).after 5 t) = _
  rw [after0_5]
  funext j
  obtain ⟨p, o, rfl⟩ : ∃ (p : Fin 2048) (o : Fin 128), j = ix2 p o := ⟨j 0, j 1, eq_ix2 j⟩
  have hN : cfg0.N = 32 := N_0
  have hlt : 2048 * (t.val / 8) + p.val < 8192 := by have := t.isLt; have := p.isLt; omega
  have hemb : ((cfg0.win 5).blk t).view.emb (ix2 p o) = ix2 (⟨2048 * (t.val / 8) + p.val, hlt⟩ : Fin 8192) o := by
    funext a; apply Fin.ext
    match a with
    | ⟨0, _⟩ => show win0_5.index t 0 * 2048 + 1 * p.val = 2048 * (t.val / 8) + p.val; rw [(idx5 t).1]; omega
    | ⟨1, _⟩ => show win0_5.index t 1 * 128 + 1 * o.val = o.val; rw [(idx5 t).2]; omega
  show (outsAt0 m c t.val t.isLt).1 (ix2 p o) = G m c (((cfg0.win 5).blk t).view.emb (ix2 p o))
  rw [hemb]
  exact out_apply m c t h7 p o ⟨_, hlt⟩ rfl

/-- Every index of the array lies in the block of the last chunk of its batch tile. -/
theorem cover (c : Dev nD) (i : S8192x128.Idx) :
    ∃ t : Fin cfg0.N, (cfg0.win 5).flush t = true ∧ i ∈ ((cfg0.win 5).blk t).view.set := by
  have hN : cfg0.N = 32 := N_0
  have hi0 : (i 0).val < 8192 := (i 0).isLt
  have hi1 : (i 1).val < 128 := (i 1).isLt
  have ht : 8 * ((i 0).val / 2048) + 7 < cfg0.N := by omega
  refine ⟨⟨8 * ((i 0).val / 2048) + 7, ht⟩, (flush0_5 _).mpr (by show (8 * ((i 0).val / 2048) + 7) % 8 = 7; omega), ?_⟩
  show i ∈ ((View.whole main_v7).slice (win0_5.rect ⟨8 * ((i 0).val / 2048) + 7, ht⟩)).set
  rw [View.set_slice_whole, Rect.mem_set_unit]
  intro a
  match a with
  | ⟨0, _⟩ =>
    show win0_5.index ⟨8 * ((i 0).val / 2048) + 7, ht⟩ 0 * 2048 ≤ (i 0).val ∧ (i 0).val < win0_5.index ⟨8 * ((i 0).val / 2048) + 7, ht⟩ 0 * 2048 + 2048
    rw [(idx5 ⟨8 * ((i 0).val / 2048) + 7, ht⟩).1]
    show (8 * ((i 0).val / 2048) + 7) / 8 * 2048 ≤ (i 0).val ∧ (i 0).val < (8 * ((i 0).val / 2048) + 7) / 8 * 2048 + 2048
    omega
  | ⟨1, _⟩ =>
    show win0_5.index ⟨8 * ((i 0).val / 2048) + 7, ht⟩ 1 * 128 ≤ (i 1).val ∧ (i 1).val < win0_5.index ⟨8 * ((i 0).val / 2048) + 7, ht⟩ 1 * 128 + 128
    rw [(idx5 ⟨8 * ((i 0).val / 2048) + 7, ht⟩).2]
    omega

/-- So the result array of the launch ends at the padded output. -/
theorem final (c : Dev nD) : (dats m 0 c).arrAt 5 cfg0.N = G m c :=
  (dats m 0 c).arrAt_eq_of_cover 5 (G m c) (flushed_eq m c) (cover c)

/-- The host line after the launch keeps the first ten columns. -/
theorem result_eq (c : Dev nD) : Pipeline.afterTail₀ cfgs (dats m) 0 (V0 m) [hostOps1] c main_v8
    = extractStridedSlice S8192x10 ![0, 0] (G m c) slices_S8192x128_S8192x10_0_0 := by
  unfold Pipeline.afterTail₀
  show StableHlo.after hostOps1 _ (Proc.devRef .tc main_v8) = _
  after_results
  refine congrArg (fun A : Vec Ideal S8192x128 .f32 => extractStridedSlice S8192x10 ![0, 0] A slices_S8192x128_S8192x10_0_0) ?_
  exact (Pipeline.withArrays_arr spec0 launch0.win.arr_inj c _ _ 5).trans (final m c)

/-- The run, read: the result at the first ten columns of the padded output, the arguments unchanged. -/
theorem run : θ_run defs (onTc (τ := τ) (main (F := Ideal))) ⟨m, fun _ => 0, ρ⟩ fun r => ∀ c : Dev nD,
      r.2.mem ((c : Thread nD τ).loc main_v8) = extractStridedSlice S8192x10 ![0, 0] (G m c) slices_S8192x128_S8192x10_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).2 main_v8 (Pipeline.mem_restRefs_of main_v8 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.Net.lean ====
/-
  The network both programs compute, as one function of the five argument arrays, on the extended reals:

      out(b, o) = sum_J clip(sum_i x(b, i) sign(W1(J, i)) + b1(J)) W2(o, J) + b2(o)

  over 8192 batch rows, 784 inputs, 4096 hidden units and 10 outputs, clip(h) = min(1, max(-1, h)) with the two
  bounds spelled by their words.
-/
import Idealize.ShloMosaic.PureOps.Ideal
import Idealize.ShloMosaic.Lib.ValueIdx

noncomputable section

namespace Cert.Mlp

open Idealize.ShloMosaic Idealize.ShloMosaic.ValueIdx

/-- The clipping bounds, as the programs spell them. -/
abbrev lo : EReal := Ideal.ofBits .f32 0xBF800000#32
abbrev hi : EReal := Ideal.ofBits .f32 0x3F800000#32

/-- The clipped hidden unit J of batch row b. -/
def hid (x : FVec Ideal ⟨2, ![8192, 784]⟩ .f32) (w1 : FVec Ideal ⟨2, ![4096, 784]⟩ .f32) (b1 : FVec Ideal ⟨1, ![4096]⟩ .f32)
    (b : Fin 8192) (J : Fin 4096) : EReal :=
  min hi (max lo ((∑ i : Fin 784, x (ix2 b i) * FloatOps.hostUnary .sign (w1 (ix2 J i))) + b1 (ix1 J)))

/-- The output o of batch row b. -/
def net (x : FVec Ideal ⟨2, ![8192, 784]⟩ .f32) (w1 : FVec Ideal ⟨2, ![4096, 784]⟩ .f32) (b1 : FVec Ideal ⟨1, ![4096]⟩ .f32)
    (w2 : FVec Ideal ⟨2, ![10, 4096]⟩ .f32) (b2 : FVec Ideal ⟨1, ![10]⟩ .f32) (b : Fin 8192) (o : Fin 10) : EReal :=
  (∑ J : Fin 4096, hid x w1 b1 b J * w2 (ix2 o J)) + b2 (ix1 o)

/-- The same as an array of shape [8192, 10]. -/
def netArr (x : FVec Ideal ⟨2, ![8192, 784]⟩ .f32) (w1 : FVec Ideal ⟨2, ![4096, 784]⟩ .f32) (b1 : FVec Ideal ⟨1, ![4096]⟩ .f32)
    (w2 : FVec Ideal ⟨2, ![10, 4096]⟩ .f32) (b2 : FVec Ideal ⟨1, ![10]⟩ .f32) : FVec Ideal ⟨2, ![8192, 10]⟩ .f32 :=
  fun i => net x w1 b1 w2 b2 (i 0) (i 1)

end Cert.Mlp

end
-- ==== Proof.Bridge.lean ====
/-
  The kernel's result is the network of the arguments.

  The arrays the launch finds are the arguments re-laid: x itself; the sign of W1 (the change of format is the
  identity); b1 as a row; W2 with 118 zero rows appended, of which the result's ten columns only see rows 0..9;
  b2 with 118 zeros appended, as a row, of which they only see entries 0..9. With x finite the residual term of the
  hidden pre-activation vanishes, and the first ten columns of the padded output are the network.
-/
import proofs.«146819_j3058016715001_2_alg».proof.Proof.Final
import proofs.«146819_j3058016715001_2_alg».proof.Proof.Net
import proofs.«146819_j3058016715001_2_alg».proof.Proof.Spec
import Idealize.ShloMosaic.Lib.KernelVsHost

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Blocks Cert.KernelIdeal.Value Cert.KernelIdeal.Final Cert.Mlp

variable (m : (ℓ : Loc nD τ sig) → Buf (Elt Ideal) ℓ)

/-- The argument arrays at their literal shapes. -/
abbrev a0 (c : Dev nD) : FVec Ideal S8192x784 .f32 := (m ((c : Thread nD τ).loc main_arg0))
abbrev a1 (c : Dev nD) : FVec Ideal S4096x784 .f32 := (m ((c : Thread nD τ).loc main_arg1))
abbrev a2 (c : Dev nD) : FVec Ideal S4096 .f32 := (m ((c : Thread nD τ).loc main_arg2))
abbrev a3 (c : Dev nD) : FVec Ideal S10x4096 .f32 := (m ((c : Thread nD τ).loc main_arg3))
abbrev a4 (c : Dev nD) : FVec Ideal S10 .f32 := (m ((c : Thread nD τ).loc main_arg4))

theorem x_eq (c : Dev nD) : X m c = a0 m c := V_main_arg0 m c

/-- The sign weights the launch finds are the sign of W1. -/
theorem sg_apply (c : Dev nD) (J : Fin 4096) (i : Fin 784) :
    Sg m c (ix2 J i) = FloatOps.hostUnary .sign (a1 m c (ix2 J i)) := by
  show (V m c main_v1 : FVec Ideal S4096x784 .bf16) (ix2 J i) = _
  rw [V_v1]
  rfl

/-- The first bias row is b1. -/
theorem bv_apply (c : Dev nD) (J : Fin 4096) : Bv m c (ix2 (0 : Fin 1) J) = a2 m c (ix1 J) := by
  show (V m c main_v5 : FVec Ideal S1x4096 .f32) (ix2 (0 : Fin 1) J) = _
  rw [V_v5]
  exact shapeCast_apply _ shapeCasts_S4096_S1x4096 (ix2 (0 : Fin 1) J) (ix1 J) (by
    rw [Shape.rowMajor_val_one, Shape.rowMajor_val_two]
    show J.val = 0 * 4096 + J.val
    omega)

/-- Rows 0..9 of the padded second weights are W2. -/
theorem wp_apply (c : Dev nD) (o : Fin 10) (J : Fin 4096) (O : Fin 128) (hO : O.val = o.val) :
    Wp m c (ix2 O J) = a3 m c (ix2 o J) := by
  show (V m c main_v3 : FVec Ideal S128x4096 .bf16) (ix2 O J) = _
  rw [V_v3]
  show pad S128x4096 ![0, 0] ![118, 0] ![0, 0] (a3 m c) _ pads_S10x4096_S128x4096_01180_000 h_S_ (ix2 O J) = _
  refine pad_apply_of_inside _ _ _ (a3 m c) _ pads_S10x4096_S128x4096_01180_000 h_S_ (ix2 O J) (ix2 o J) fun a => ?_
  match a with
  | ⟨0, _⟩ => show O.val = 0 + o.val * (0 + 1); omega
  | ⟨1, _⟩ => show J.val = 0 + J.val * (0 + 1); omega

/-- Entries 0..9 of the padded second bias row are b2. -/
theorem cp_apply (c : Dev nD) (o : Fin 10) (O : Fin 128) (hO : O.val = o.val) :
    Cp m c (ix2 (0 : Fin 1) O) = a4 m c (ix1 o) := by
  show (V m c main_v6 : FVec Ideal S1x128 .f32) (ix2 (0 : Fin 1) O) = _
  rw [V_v6]
  refine (shapeCast_apply _ shapeCasts_S128_S1x128 (ix2 (0 : Fin 1) O) (ix1 O) (by
    rw [Shape.rowMajor_val_one, Shape.rowMajor_val_two]
    show O.val = 0 * 128 + O.val
    omega)).trans ?_
  refine pad_apply_of_inside _ _ _ (a4 m c) _ pads_S10_S128_01180 h_S_ (ix1 O) (ix1 o) fun a => ?_
  match a with
  | ⟨0, _⟩ => show O.val = 0 + o.val * (0 + 1); omega

/-- With x finite, the hidden units the launch computes are the network's. -/
theorem hid_eq (c : Dev nD) (hfin : ∀ (b : Fin 8192) (i : Fin 784), ∃ r : ℝ, a0 m c (ix2 b i) = (r : EReal))
    (b : Fin 8192) (J : Fin 4096) :
    hidE (X m c) (Sg m c) (Bv m c) b J = hid (a0 m c) (a1 m c) (a2 m c) b J := by
  unfold hidE hid
  rw [bv_apply, x_eq]
  have e1 : (∑ i : Fin 784, a0 m c (ix2 b i) * Sg m c (ix2 J i))
      = ∑ i : Fin 784, a0 m c (ix2 b i) * FloatOps.hostUnary .sign (a1 m c (ix2 J i)) :=
    Finset.sum_congr rfl fun i _ => congrArg (a0 m c (ix2 b i) * ·) (sg_apply m c J i)
  have e2 : (∑ i : Fin 784, (a0 m c (ix2 b i) - a0 m c (ix2 b i)) * Sg m c (ix2 J i))
      = ∑ i : Fin 784, (a0 m c (ix2 b i) - a0 m c (ix2 b i)) * FloatOps.hostUnary .sign (a1 m c (ix2 J i)) :=
    Finset.sum_congr rfl fun i _ => congrArg ((a0 m c (ix2 b i) - a0 m c (ix2 b i)) * ·) (sg_apply m c J i)
  rw [e1, e2, preact_eq (fun i : Fin 784 => a0 m c (ix2 b i)) (fun i : Fin 784 => FloatOps.hostUnary .sign (a1 m c (ix2 J i)))
    (a2 m c (ix1 J)) (fun i => hfin b i)]

/-- The padded output at an index. -/
theorem G_apply (c : Dev nD) (b : Fin 8192) (O : Fin 128) :
    G m c (ix2 b O) = outE (X m c) (Sg m c) (Bv m c) (Wp m c) (Cp m c) b O := rfl

/-- On the first ten columns the padded output is the network. -/
theorem outE_net (c : Dev nD) (hfin : ∀ (b : Fin 8192) (i : Fin 784), ∃ r : ℝ, a0 m c (ix2 b i) = (r : EReal))
    (b : Fin 8192) (o : Fin 10) (O : Fin 128) (hO : O.val = o.val) :
    outE (X m c) (Sg m c) (Bv m c) (Wp m c) (Cp m c) b O = net (a0 m c) (a1 m c) (a2 m c) (a3 m c) (a4 m c) b o := by
  unfold outE net
  have e : ∀ J : Fin 4096, hidE (X m c) (Sg m c) (Bv m c) b J * Wp m c (ix2 O J)
      = hid (a0 m c) (a1 m c) (a2 m c) b J * a3 m c (ix2 o J) := fun J => by
    rw [wp_apply m c o J O hO, hid_eq m c hfin b J]
  have hs : (∑ J : Fin 4096, hidE (X m c) (Sg m c) (Bv m c) b J * Wp m c (ix2 O J))
      = ∑ J : Fin 4096, hid (a0 m c) (a1 m c) (a2 m c) b J * a3 m c (ix2 o J) := Finset.sum_congr rfl fun J _ => e J
  rw [hs, cp_apply m c o O hO]

/-- The slice that keeps the first ten columns, read at an index, for any array. -/
theorem slice_apply (x : Vec Ideal S8192x128 .f32) (b : Fin 8192) (o : Fin 10) (O : Fin 128) (hO : O.val = o.val) :
    extractStridedSlice S8192x10 ![0, 0] x slices_S8192x128_S8192x10_0_0 (ix2 b o) = x (ix2 b O) :=
  extractStridedSlice_apply ![0, 0] x slices_S8192x128_S8192x10_0_0 (ix2 b o) (ix2 b O) (fun a => by
    match a with
    | ⟨0, _⟩ => show b.val = 0 + b.val; omega
    | ⟨1, _⟩ => show O.val = 0 + o.val; omega)

/-- The first ten columns of the padded output are the network of the arguments. -/
theorem result_net (c : Dev nD) (hfin : ∀ (b : Fin 8192) (i : Fin 784), ∃ r : ℝ, a0 m c (ix2 b i) = (r : EReal)) :
    extractStridedSlice S8192x10 ![0, 0] (G m c) slices_S8192x128_S8192x10_0_0
      = netArr (a0 m c) (a1 m c) (a2 m c) (a3 m c) (a4 m c) := by
  funext i
  obtain ⟨b, o, rfl⟩ : ∃ (b : Fin 8192) (o : Fin 10), i = ix2 b o := ⟨i 0, i 1, eq_ix2 i⟩
  have ho : o.val < 128 := by have := o.isLt; omega
  exact (slice_apply (G m c) b o ⟨o.val, ho⟩ rfl).trans ((G_apply m c b ⟨o.val, ho⟩).trans (outE_net m c hfin b o ⟨o.val, ho⟩ rfl))

end Cert.KernelIdeal.Bridge

end
-- ==== Proof.RefValue.lean ====
/-
  The reference computes the network: its result, read index by index through the stages of its run, is
  out(b, o) = sum_J clip(sum_i x(b, i) sign(W1(J, i)) + b1(J)) W2(o, J) + b2(o).
-/
import proofs.«146819_j3058016715001_2_alg».proof.Proof.Gen.ReferenceIdeal.Read
import proofs.«146819_j3058016715001_2_alg».proof.Proof.Net

noncomputable section

namespace Cert.ReferenceIdeal.RefValue

open Idealize.ShloMosaic Idealize.ShloMosaic.ValueIdx Cert.ReferenceIdeal Cert.ReferenceIdeal.Read Cert.Mlp

theorem result_apply (x0 : FVec Ideal S8192x784 .f32) (x1 : FVec Ideal S4096x784 .f32) (x2 : FVec Ideal S4096 .f32)
    (x3 : FVec Ideal S10x4096 .f32) (x4 : FVec Ideal S10 .f32) (b : Fin 8192) (o : Fin 10) :
    val_main_v9 (F := Ideal) x0 x1 x2 x3 x4 (ix2 b o) = net x0 x1 x2 x3 x4 b o := by
  have e1 : ∀ J : Fin 4096, lidx_main_v6 (ix2 b o) J = ix2 b J := fun J => funext fun a => Fin.ext (by
    match a with | ⟨0, _⟩ => rfl | ⟨1, _⟩ => rfl)
  have e2 : ∀ J : Fin 4096, ridx_main_v6 (ix2 b o) J = ix2 o J := fun J => funext fun a => Fin.ext (by
    match a with | ⟨0, _⟩ => rfl | ⟨1, _⟩ => rfl)
  have e3 : ∀ (J : Fin 4096) (i : Fin 784), lidx_main_v1 (ix2 b J) i = ix2 b i := fun J i => funext fun a => Fin.ext (by
    match a with | ⟨0, _⟩ => rfl | ⟨1, _⟩ => rfl)
  have e4 : ∀ (J : Fin 4096) (i : Fin 784), ridx_main_v1 (ix2 b J) i = ix2 J i := fun J i => funext fun a => Fin.ext (by
    match a with | ⟨0, _⟩ => rfl | ⟨1, _⟩ => rfl)
  have e5 : ∀ J : Fin 4096, idx_main_v2 (idx_main_v3 (ix2 b J)) = ix1 J := fun J => funext fun a => Fin.ext (by
    match a with | ⟨0, _⟩ => rfl)
  have e6 : idx_main_v7 (idx_main_v8 (ix2 b o)) = ix1 o := funext fun a => Fin.ext (by
    match a with | ⟨0, _⟩ => rfl)
  simp only [val_main_v9_apply, val_main_v6_apply, val_main_v8_apply, val_main_v7_apply, val_main_v5_apply,
    val_main_call0_v4_apply, val_main_call0_v3_apply, val_main_cst_0_apply, val_main_call0_v2_apply,
    val_main_call0_v1_apply, val_main_call0_v0_apply, val_main_cst_apply, val_main_v4_apply, val_main_v1_apply,
    val_main_v3_apply, val_main_v2_apply, val_main_v0_apply, e1, e2, e3, e4, e5, e6]
  rfl

/-- As arrays. -/
theorem result_eq (x0 : FVec Ideal S8192x784 .f32) (x1 : FVec Ideal S4096x784 .f32) (x2 : FVec Ideal S4096 .f32)
    (x3 : FVec Ideal S10x4096 .f32) (x4 : FVec Ideal S10 .f32) :
    val_main_v9 (F := Ideal) x0 x1 x2 x3 x4 = netArr x0 x1 x2 x3 x4 := by
  funext i
  obtain ⟨b, o, rfl⟩ : ∃ (b : Fin 8192) (o : Fin 10), i = ix2 b o := ⟨i 0, i 1, eq_ix2 i⟩
  exact result_apply x0 x1 x2 x3 x4 b o

end Cert.ReferenceIdeal.RefValue

end
-- ==== Proof.Finite.lean ====
/-
  What the precondition gives: every entry of the input x is a real number.

  The precondition is the conjunction, over the five arguments, of "every |entry| is below +infinity". Its first
  conjunct, read at an index, says |x(b, i)| < +infinity on the extended reals, which excludes both infinities.
-/
import proofs.«146819_j3058016715001_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Idealize.ShloMosaic Idealize.ShloMosaic.ValueIdx Cert.Pre_finite_inputs

instance : Subsingleton S_.Idx := ⟨fun a b => funext fun d => d.elim0⟩

/-- The word 0x7F800000 is +infinity. -/
theorem ofBits_inf : Ideal.ofBits .f32 0x7F800000#32 = ⊤ := by simp [Ideal.ofBits, Ideal.ieee]

/-- An extended real whose absolute value is below +infinity is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => exfalso; simp [Ideal.cmp] at h
  | coe r => exact ⟨r, rfl⟩
  | top => exfalso; simp [Ideal.cmp] at h

variable [Facts]

/-- Under the precondition every entry of x is real. -/
theorem x_real (x0 : FVec Ideal S8192x784 .f32) (x1 : FVec Ideal S4096x784 .f32) (x2 : FVec Ideal S4096 .f32)
    (x3 : FVec Ideal S10x4096 .f32) (x4 : FVec Ideal S10 .f32) (h : fn (F := Ideal) x0 x1 x2 x3 x4 = fun _ => 1#1)
    (b : Fin 8192) (i : Fin 784) : ∃ r : ℝ, x0 (ix2 b i) = (r : EReal) := by
  have h0 := congrFun h ix0
  dsimp only [fn, fn_part1] at h0
  have h1 := (IntOp.andi_eq_one.mp h0).1
  have h2 := (IntOp.andi_eq_one.mp h1).1
  have h3 := (IntOp.andi_eq_one.mp h2).1
  have h4 := (IntOp.andi_eq_one.mp h3).1
  have h5 := Host.reduce_andi_all _ _ _ _ ix0 h4 (ix2 b i)
  exact real_of_abs_lt _ h5

end Cert.Pre_finite_inputs.Finite

end
-- ==== Proof.lean ====
/-
  A two-layer network with a sign-quantized first layer, a tiled kernel against its plain reference, on the
  extended reals:

      out(b, o) = sum_J clip(sum_i x(b, i) sign(W1(J, i)) + b1(J)) W2(o, J) + b2(o),   clip(h) = min(1, max(-1, h)).

  The reference computes this in one piece. The kernel walks a 4 x 8 grid: batch tile t / 8 (2048 rows) and hidden
  chunk t % 8 (512 units). At each point it forms the chunk's hidden units — contracting x and also the residual
  x - x of a change of format that is the identity on exact values — clips them, contracts them with the chunk's
  columns of W2 (zero-padded to 128 output rows) and adds the result to a running block that the first chunk starts
  from zero; the last chunk adds the zero-padded b2 and writes the tile's rows of a [8192, 128] array, of which a
  final slice keeps columns 0..9.

  The two agree because (1) x is finite, so x - x = 0 and the residual contraction vanishes; (2) eight chunks of 512
  hidden units summed one after the other from zero are the sum over all 4096 (addition on the extended reals is
  commutative and associative); (3) the ten kept columns read rows 0..9 of the padded W2 and entries 0..9 of the
  padded b2, which are W2 and b2. Finiteness is used in (1) only.

  The three frames are the generated ones (the reference's is its generated run with the result dropped); the one
  rewrite the idealization made (a widening of a narrowing replaced by its operand) is its rule's statement.
-/
import proofs.«146819_j3058016715001_2_alg».proof.Defs
import proofs.«146819_j3058016715001_2_alg».proof.Proof.Gen.Kernel
import proofs.«146819_j3058016715001_2_alg».proof.Proof.Gen.Kernel.Skeleton
import proofs.«146819_j3058016715001_2_alg».proof.Proof.Gen.Kernel.Launch
import proofs.«146819_j3058016715001_2_alg».proof.Proof.Gen.Kernel.Points
import proofs.«146819_j3058016715001_2_alg».proof.Proof.Gen.Kernel.Frame
import proofs.«146819_j3058016715001_2_alg».proof.Proof.Gen.KernelIdeal
import proofs.«146819_j3058016715001_2_alg».proof.Proof.Gen.KernelIdeal.Skeleton
import proofs.«146819_j3058016715001_2_alg».proof.Proof.Gen.KernelIdeal.Launch
import proofs.«146819_j3058016715001_2_alg».proof.Proof.Gen.KernelIdeal.Points
import proofs.«146819_j3058016715001_2_alg».proof.Proof.Gen.KernelIdeal.Frame
import proofs.«146819_j3058016715001_2_alg».proof.Proof.Gen.ReferenceIdeal
import proofs.«146819_j3058016715001_2_alg».proof.Proof.Gen.Pre_finite_inputs
import proofs.«146819_j3058016715001_2_alg».proof.Proof.Gen.ReferenceIdeal.Run
import proofs.«146819_j3058016715001_2_alg».proof.Proof.Gen.ReferenceIdeal.Read
import proofs.«146819_j3058016715001_2_alg».proof.Proof.Bridge
import proofs.«146819_j3058016715001_2_alg».proof.Proof.RefValue
import proofs.«146819_j3058016715001_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: narrowing to bf16 and widening back is the identity on exact values. -/
theorem preserves : Cert.preserves_Kernel_KernelIdeal := IdealRules.truncf_extf.statement _ .f32 .bf16

/-- Both programs end at the network of the arguments. -/
theorem algebraic : Cert.algebraic_KernelIdeal_ReferenceIdeal := by
  intro m ρ m' ρ' hpre hagree
  refine ⟨fun c => Cert.Mlp.netArr (Cert.KernelIdeal.Bridge.a0 m c) (Cert.KernelIdeal.Bridge.a1 m c) (Cert.KernelIdeal.Bridge.a2 m c)
    (Cert.KernelIdeal.Bridge.a3 m c) (Cert.KernelIdeal.Bridge.a4 m c), ?_, ?_⟩
  · refine (θ_run Cert.KernelIdeal.defs _ _).mono (fun _ h c => ⟨(h c).1.trans ?_, (h c).2⟩) (Cert.KernelIdeal.Final.run m ρ)
    exact Cert.KernelIdeal.Bridge.result_net m c fun b i => Cert.Pre_finite_inputs.Finite.x_real _ _ _ _ _ (hpre c) b i
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, Cert.ReferenceIdeal.RefValue.result_eq, (hagree c).1, (hagree c).2.1,
      (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
